-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S256x32 : Shape := ⟨2, ![256, 32]⟩
abbrev S1000000 : Shape := ⟨1, ![1000000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S160x128 1) : IVec S_ 1 :=
  let main_c_5 : IVec S_ 1 := constantI S_ 1 1#1
  let main_v17 : IVec S_ 1 := (fun x v => Host.reduce IntOp.andi x v reducesTo_S160x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1000000x64 .f32) (main_arg1 : FVec F S1000000x64 .f32) (main_arg2 : FVec F S256x32 .f32) (main_arg3 : IVec S1000000 32) (main_arg4 : FVec F S160x128 .f32) (main_arg5 : FVec F S128 .f32) (main_arg6 : FVec F S128x64 .f32) (main_arg7 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S160x128 .f32 := Host.absf main_arg4
  let main_cst_4 : FVec F S_ .f32 := constant S_ .f32 0x7F800000#32
  let main_v15 : FVec F S160x128 .f32 := broadcastInDim S160x128 ![] bcast_S_S160x128 main_cst_4
  let main_v16 : IVec S160x128 1 := cmpf .olt main_v14 main_v15
  fn_part1 (F := F) main_arg5 main_arg6 main_arg7 main_v13 main_v16
-- ==== Kernel.lean ====
abbrev S1000000x64 : Shape := ⟨2, ![1000000, 64]⟩
abbrev S256x32 : Shape := ⟨2, ![256, 32]⟩
abbrev S1000000 : Shape := ⟨1, ![1000000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1000000x32 : Shape := ⟨2, ![1000000, 32]⟩
abbrev S64x128 : Shape := ⟨2, ![64, 128]⟩
abbrev S32x128 : Shape := ⟨2, ![32, 128]⟩
abbrev S1x128 : Shape := ⟨2, ![1, 128]⟩
abbrev S1x64 : Shape := ⟨2, ![1, 64]⟩
abbrev S8000x64 : Shape := ⟨2, ![8000, 64]⟩
abbrev S8000x32 : Shape := ⟨2, ![8000, 32]⟩
abbrev S8000x128 : Shape := ⟨2, ![8000, 128]⟩

abbrev nBuf : Space → Nat
  | .hbm => 23
  | .vmem => 14
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S256x32, .f32⟩
  | .hbm, ⟨3, _⟩ => ⟨S1000000, .i32⟩
  | .hbm, ⟨4, _⟩ => ⟨S160x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x32, .f32⟩
  | .hbm, ⟨17, _⟩ => ⟨S64x128, .f32⟩
  | .hbm, ⟨18, _⟩ => ⟨S64x128, .f32⟩
  | .hbm, ⟨19, _⟩ => ⟨S32x128, .f32⟩
  | .hbm, ⟨20, _⟩ => ⟨S1x128, .f32⟩
  | .hbm, ⟨21, _⟩ => ⟨S1x64, .f32⟩
  | .hbm, ⟨22, _⟩ => ⟨S1000000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x32, .f32⟩
  | .local _ .vmem, ⟨5, _⟩ => ⟨S8000x32, .f32⟩
  | .local _ .vmem, ⟨6, _⟩ => ⟨S64x128, .f32⟩
  | .local _ .vmem, ⟨7, _⟩ => ⟨S64x128, .f32⟩
  | .local _ .vmem, ⟨8, _⟩ => ⟨S32x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S160x128_S64x128_0_0 : S160x128.Slices ![0, 0] S64x128
  slices_S160x128_S64x128_64_0 : S160x128.Slices ![64, 0] S64x128
  slices_S160x128_S32x128_128_0 : S160x128.Slices ![128, 0] S32x128
  shapeCasts_S128_S1x128 : S128.ShapeCasts S1x128
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  gather_S256x32_S1000000x1_S1000000x32_1_0_n_n_0_1_132_wf : GatherDims.WF S256x32 S1000000x1 S1000000x32 [1] [0] [] [0] [] 1 ![1, 32]
  dot_S8000x64_S64x128_S8000x128_1_0_0_1_n_n_wf : DotDims.WF S8000x64 S64x128 S8000x128 [1] [0] [0] [1] [] []
  dot_S8000x32_S32x128_S8000x128_1_0_0_1_n_n_wf : DotDims.WF S8000x32 S32x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1000000x32.size a
  hwx0_2 : ∀ i : grid0.Coords, EltTy.bits .f32 = 32 ∨ (Rect.block (s := S1000000x32) S8000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S1000000x64.size a
  hwx0_9 : ∀ i : grid0.Coords, EltTy.bits .f32 = 32 ∨ (Rect.block (s := S1000000x64) S8000x64.size (cc0_transform_9 i) (hinb0_9 i)).WholeWords (EltTy.packing .f32)

variable [Facts₀]

def gather_S256x32_S1000000x1_S1000000x32_1_0_n_n_0_1_132 : GatherDims S256x32 S1000000x1 S1000000x32 where
  offsetDims := [1]
  collapsedSliceDims := [0]
  operandBatchingDims := []
  startIndicesBatchingDims := []
  startIndexMap := [0]
  indexVectorDim := 1
  sliceSizes := ![1, 32]
  wf := gather_S256x32_S1000000x1_S1000000x32_1_0_n_n_0_1_132_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S256x32 : Shape := ⟨2, ![256, 32]⟩
abbrev S1000000 : Shape := ⟨1, ![1000000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1000000x32 : Shape := ⟨2, ![1000000, 32]⟩
abbrev S1000000x160 : Shape := ⟨2, ![1000000, 160]⟩
abbrev S1000000x128 : Shape := ⟨2, ![1000000, 128]⟩
abbrev S1x128 : Shape := ⟨2, ![1, 128]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S256x32, .f32⟩
  | .hbm, ⟨3, _⟩ => ⟨S1000000, .i32⟩
  | .hbm, ⟨4, _⟩ => ⟨S160x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x32, .f32⟩
  | .hbm, ⟨17, _⟩ => ⟨S1000000x160, .f32⟩
  | .hbm, ⟨18, _⟩ => ⟨S1000000x128, .f32⟩
  | .hbm, ⟨19, _⟩ => ⟨S1x128, .f32⟩
  | .hbm, ⟨20, _⟩ => ⟨S1000000x128, .f32⟩
  | .hbm, ⟨21, _⟩ => ⟨S1000000x128, .f32⟩
  | .hbm, ⟨22, _⟩ => ⟨S_, .f32⟩
  | .hbm, ⟨23, _⟩ => ⟨S1000000x128, .f32⟩
  | .hbm, ⟨24, _⟩ => ⟨S1000000x128, .f32⟩
  | .hbm, ⟨25, _⟩ => ⟨S1000000x64, .f32⟩
  | .hbm, ⟨26, _⟩ => ⟨S1x64, .f32⟩
  | .hbm, ⟨27, _⟩ => ⟨S1000000x64, .f32⟩
  | .hbm, ⟨28, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x32_S1000000x160_d1 : Shape.Concatenates [S1000000x64, S1000000x64, S1000000x32] S1000000x160 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S256x32_S1000000x1_S1000000x32_1_0_n_n_0_1_132_wf : GatherDims.WF S256x32 S1000000x1 S1000000x32 [1] [0] [] [0] [] 1 ![1, 32]
  dot_S1000000x160_S160x128_S1000000x128_1_0_0_1_n_n_wf : DotDims.WF S1000000x160 S160x128 S1000000x128 [1] [0] [0] [1] [] []
  dot_S1000000x128_S128x64_S1000000x64_1_0_0_1_n_n_wf : DotDims.WF S1000000x128 S128x64 S1000000x64 [1] [0] [0] [1] [] []

variable [Facts₀]

def gather_S256x32_S1000000x1_S1000000x32_1_0_n_n_0_1_132 : GatherDims S256x32 S1000000x1 S1000000x32 where
  offsetDims := [1]
  collapsedSliceDims := [0]
  operandBatchingDims := []
  startIndicesBatchingDims := []
  startIndexMap := [0]
  indexVectorDim := 1
  sliceSizes := ![1, 32]
  wf := gather_S256x32_S1000000x1_S1000000x32_1_0_n_n_0_1_132_wf
def dot_S1000000x160_S160x128_S1000000x128_1_0_0_1_n_n : DotDims S1000000x160 S160x128 S1000000x128 where
  lhsContracting := [1]
  rhsContracting := [0]
  lhsNonContracting := [0]
  rhsNonContracting := [1]
  lhsBatch := []
  rhsBatch := []
  wf := dot_S1000000x160_S160x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.BodyValue.lean ====
/-
  What the kernel's body computes for one block of 8000 edges, entry by entry.

  The body loads a block of `src`, of `dest` and of the gathered table rows, the three row bands of `W1`, the
  two biases as one-row matrices and `W2`; it forms the three products of a block with its band of `W1`, adds
  them in the order src, dest, table, adds the first bias to every row, takes the maximum with zero, multiplies
  by `W2` and adds the second bias to every row. At the exact instance the roundings to sixteen bits on the way
  into a product are the identity and a product accumulated into a zero matrix is the plain sum over the
  contracted index, so entry `(p, q)` of the stored block is
  `∑ k, max (∑ a, S p a · A a k + ∑ a, D p a · B a k + ∑ a, T p a · C a k + β 0 k) 0 · W k q + γ 0 q`.
-/
import proofs.«159218_j26302379720743_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen
open Idealize.ShloMosaic Idealize.ShloMosaic.TcCoe Idealize.ShloMosaic.ValueIdx

/-- The dimension numbers of a block of 64 columns times a 64-row band of `W1`. -/
abbrev dBand64 := dot_S8000x64_S64x128_S8000x128_1_0_0_1_n_n
/-- The dimension numbers of a block of 32 columns times the 32-row band of `W1`. -/
abbrev dBand32 := dot_S8000x32_S32x128_S8000x128_1_0_0_1_n_n
/-- The dimension numbers of the hidden block times `W2`. -/
abbrev dOut := dot_S8000x128_S128x64_S8000x64_1_0_0_1_n_n

/-! ## A 64-column block times a 64-row band -/

theorem band64_lhs0 (i : S8000x128.Idx) (q : dBand64.contr.Idx) : (dBand64.lhsIdx i q 0).val = (i 0).val := by
  unfold DotDims.lhsIdx
  rw [dif_neg (show ¬(0 : Fin S8000x64.rank) ∈ dBand64.lhsBatch by decide),
    dif_pos (show (0 : Fin S8000x64.rank) ∈ dBand64.lhsNonContracting by decide)]
  rfl
theorem band64_lhs1 (i : S8000x128.Idx) (q : dBand64.contr.Idx) : (dBand64.lhsIdx i q 1).val = (q ⟨0, by decide⟩).val :=
  dBand64.lhsIdx_val_of_single rfl i q
theorem band64_rhs0 (i : S8000x128.Idx) (q : dBand64.contr.Idx) : (dBand64.rhsIdx i q 0).val = (q ⟨0, by decide⟩).val :=
  dBand64.rhsIdx_val_of_single rfl i q
theorem band64_rhs1 (i : S8000x128.Idx) (q : dBand64.contr.Idx) : (dBand64.rhsIdx i q 1).val = (i 1).val := by
  unfold DotDims.rhsIdx
  rw [dif_neg (show ¬(1 : Fin S64x128.rank) ∈ dBand64.rhsBatch by decide),
    dif_pos (show (1 : Fin S64x128.rank) ∈ dBand64.rhsNonContracting by decide)]
  rfl

/-- A 64-column block times a 64-row band, accumulated into zero, at `(p, j)`: the sum over the 64 shared indices. -/
theorem band64_apply {φ₁ φ₂ : FTy} (l : FVec Ideal S8000x64 φ₁) (r : FVec Ideal S64x128 φ₂) (p : Fin 8000) (j : Fin 128) :
    matmul dBand64 none l r (constant (F := Ideal) S8000x128 .f32 0x00000000#32) (ix2 p j)
      = ∑ k : Fin 64, l (ix2 p k) * r (ix2 k j) := by
  refine (Ideal.matmul_constant_zero_apply dBand64 none l r (ix2 p j)).trans ?_
  rw [← Equiv.sum_comp (contrEquiv1 dBand64 64 rfl rfl).symm]
  refine Finset.sum_congr rfl fun k _ => ?_
  have hk := contrEquiv1_symm_val dBand64 64 rfl rfl k
  have el : dBand64.lhsIdx (ix2 p j) ((contrEquiv1 dBand64 64 rfl rfl).symm k) = ix2 p k := funext fun a => Fin.ext (by
    match a with
    | ⟨0, _⟩ => exact band64_lhs0 _ _
    | ⟨1, _⟩ => exact (band64_lhs1 _ _).trans hk)
  have er : dBand64.rhsIdx (ix2 p j) ((contrEquiv1 dBand64 64 rfl rfl).symm k) = ix2 k j := funext fun a => Fin.ext (by
    match a with
    | ⟨0, _⟩ => exact (band64_rhs0 _ _).trans hk
    | ⟨1, _⟩ => exact band64_rhs1 _ _)
  rw [el, er]

/-! ## The 32-column block times the 32-row band -/

theorem band32_lhs0 (i : S8000x128.Idx) (q : dBand32.contr.Idx) : (dBand32.lhsIdx i q 0).val = (i 0).val := by
  unfold DotDims.lhsIdx
  rw [dif_neg (show ¬(0 : Fin S8000x32.rank) ∈ dBand32.lhsBatch by decide),
    dif_pos (show (0 : Fin S8000x32.rank) ∈ dBand32.lhsNonContracting by decide)]
  rfl
theorem band32_lhs1 (i : S8000x128.Idx) (q : dBand32.contr.Idx) : (dBand32.lhsIdx i q 1).val = (q ⟨0, by decide⟩).val :=
  dBand32.lhsIdx_val_of_single rfl i q
theorem band32_rhs0 (i : S8000x128.Idx) (q : dBand32.contr.Idx) : (dBand32.rhsIdx i q 0).val = (q ⟨0, by decide⟩).val :=
  dBand32.rhsIdx_val_of_single rfl i q
theorem band32_rhs1 (i : S8000x128.Idx) (q : dBand32.contr.Idx) : (dBand32.rhsIdx i q 1).val = (i 1).val := by
  unfold DotDims.rhsIdx
  rw [dif_neg (show ¬(1 : Fin S32x128.rank) ∈ dBand32.rhsBatch by decide),
    dif_pos (show (1 : Fin S32x128.rank) ∈ dBand32.rhsNonContracting by decide)]
  rfl

/-- The 32-column block times the 32-row band, accumulated into zero, at `(p, j)`. -/
theorem band32_apply {φ₁ φ₂ : FTy} (l : FVec Ideal S8000x32 φ₁) (r : FVec Ideal S32x128 φ₂) (p : Fin 8000) (j : Fin 128) :
    matmul dBand32 none l r (constant (F := Ideal) S8000x128 .f32 0x00000000#32) (ix2 p j)
      = ∑ k : Fin 32, l (ix2 p k) * r (ix2 k j) := by
  refine (Ideal.matmul_constant_zero_apply dBand32 none l r (ix2 p j)).trans ?_
  rw [← Equiv.sum_comp (contrEquiv1 dBand32 32 rfl rfl).symm]
  refine Finset.sum_congr rfl fun k _ => ?_
  have hk := contrEquiv1_symm_val dBand32 32 rfl rfl k
  have el : dBand32.lhsIdx (ix2 p j) ((contrEquiv1 dBand32 32 rfl rfl).symm k) = ix2 p k := funext fun a => Fin.ext (by
    match a with
    | ⟨0, _⟩ => exact band32_lhs0 _ _
    | ⟨1, _⟩ => exact (band32_lhs1 _ _).trans hk)
  have er : dBand32.rhsIdx (ix2 p j) ((contrEquiv1 dBand32 32 rfl rfl).symm k) = ix2 k j := funext fun a => Fin.ext (by
    match a with
    | ⟨0, _⟩ => exact (band32_rhs0 _ _).trans hk
    | ⟨1, _⟩ => exact band32_rhs1 _ _)
  rw [el, er]

/-! ## The hidden block times `W2` -/

theorem out_lhs0 (i : S8000x64.Idx) (q : dOut.contr.Idx) : (dOut.lhsIdx i q 0).val = (i 0).val := by
  unfold DotDims.lhsIdx
  rw [dif_neg (show ¬(0 : Fin S8000x128.rank) ∈ dOut.lhsBatch by decide),
    dif_pos (show (0 : Fin S8000x128.rank) ∈ dOut.lhsNonContracting by decide)]
  rfl
theorem out_lhs1 (i : S8000x64.Idx) (q : dOut.contr.Idx) : (dOut.lhsIdx i q 1).val = (q ⟨0, by decide⟩).val :=
  dOut.lhsIdx_val_of_single rfl i q
theorem out_rhs0 (i : S8000x64.Idx) (q : dOut.contr.Idx) : (dOut.rhsIdx i q 0).val = (q ⟨0, by decide⟩).val :=
  dOut.rhsIdx_val_of_single rfl i q
theorem out_rhs1 (i : S8000x64.Idx) (q : dOut.contr.Idx) : (dOut.rhsIdx i q 1).val = (i 1).val := by
  unfold DotDims.rhsIdx
  rw [dif_neg (show ¬(1 : Fin S128x64.rank) ∈ dOut.rhsBatch by decide),
    dif_pos (show (1 : Fin S128x64.rank) ∈ dOut.rhsNonContracting by decide)]
  rfl

/-- The hidden block times `W2`, accumulated into zero, at `(p, q)`: the sum over the 128 hidden entries. -/
theorem out_apply {φ₁ φ₂ : FTy} (l : FVec Ideal S8000x128 φ₁) (r : FVec Ideal S128x64 φ₂) (p : Fin 8000) (q : Fin 64) :
    matmul dOut none l r (constant (F := Ideal) S8000x64 .f32 0x00000000#32) (ix2 p q)
      = ∑ k : Fin 128, l (ix2 p k) * r (ix2 k q) := by
  refine (Ideal.matmul_constant_zero_apply dOut none l r (ix2 p q)).trans ?_
  rw [← Equiv.sum_comp (contrEquiv1 dOut 128 rfl rfl).symm]
  refine Finset.sum_congr rfl fun k _ => ?_
  have hk := contrEquiv1_symm_val dOut 128 rfl rfl k
  have el : dOut.lhsIdx (ix2 p q) ((contrEquiv1 dOut 128 rfl rfl).symm k) = ix2 p k := funext fun a => Fin.ext (by
    match a with
    | ⟨0, _⟩ => exact out_lhs0 _ _
    | ⟨1, _⟩ => exact (out_lhs1 _ _).trans hk)
  have er : dOut.rhsIdx (ix2 p q) ((contrEquiv1 dOut 128 rfl rfl).symm k) = ix2 k q := funext fun a => Fin.ext (by
    match a with
    | ⟨0, _⟩ => exact (out_rhs0 _ _).trans hk
    | ⟨1, _⟩ => exact out_rhs1 _ _)
  rw [el, er]

/-! ## The stored block, entry by entry -/

/-- Entry `k` of the hidden layer of row `p` of a block, from the loaded blocks. -/
def hiddenBlk (S D : Vec Ideal S8000x64 .f32) (T : Vec Ideal S8000x32 .f32) (A B : Vec Ideal S64x128 .f32)
    (C : Vec Ideal S32x128 .f32) (β : Vec Ideal S1x128 .f32) (p : Fin 8000) (k : Fin 128) : EReal :=
  max ((((∑ a : Fin 64, S (ix2 p a) * A (ix2 a k)) + ∑ a : Fin 64, D (ix2 p a) * B (ix2 a k))
        + ∑ a : Fin 32, T (ix2 p a) * C (ix2 a k)) + β (ix2 (0 : Fin 1) k))
    (Ideal.ofBits .f32 0x00000000#32)

/-- The body's stored value at `(p, q)`. -/
theorem stored_apply (S D : Vec Ideal S8000x64 .f32) (T : Vec Ideal S8000x32 .f32) (A B : Vec Ideal S64x128 .f32)
    (C : Vec Ideal S32x128 .f32) (β : Vec Ideal S1x128 .f32) (W : Vec Ideal S128x64 .f32) (γ : Vec Ideal S1x64 .f32)
    (p : Fin 8000) (q : Fin 64) :
    k0_pay1 S D T A B C β W γ (ix2 p q)
      = (∑ k : Fin 128, hiddenBlk S D T A B C β p k * W (ix2 k q)) + γ (ix2 (0 : Fin 1) q) := by
  unfold k0_pay1
  simp only [addf_apply, maximumf_apply, truncf_apply, broadcast_apply, shapeCast_self, band64_apply, band32_apply,
    out_apply, broadcastTo_1b_ab_apply]
  rfl

end Cert.KernelIdeal.BodyValue

end
-- ==== Proof.EdgeMlp.lean ====
/-
  The function both programs compute, stated once over the whole argument arrays.

  For every edge `e` (a row of the million-row arrays) the input of the two-layer perceptron is the row
  `x_e = [ src_e | dest_e | g_e ]` of 64 + 64 + 32 = 160 entries, where `g_e` is the row of the small table `u`
  that the edge's batch number selects (the gather is applied before either program does any arithmetic, so
  it enters here as the already-gathered array `g`). The hidden layer is `h_e = max (x_e · W1 + b1) 0`, 128
  entries, and the result is `h_e · W2 + b2`, 64 entries.

  The product `x_e · W1` is written the way the kernel forms it: as three products, of `src_e`, `dest_e` and
  `g_e` with the three bands of rows 0–63, 64–127 and 128–159 of `W1`, added in that order. The reference
  instead contracts the concatenated row with all of `W1` at once; the two agree because a sum over 160
  indices is the sum of the sums over those three bands (`sum_three_bands`), which needs only that addition
  is commutative and associative — true of the extended reals, infinities included — so no finiteness of the
  inputs is used anywhere.
-/
import Idealize.ShloMosaic.PureOps.Ideal
import Idealize.ShloMosaic.Lib.ValueIdx
import Mathlib.Algebra.BigOperators.Fin

noncomputable section

namespace Cert.EdgeMlp

open Idealize.ShloMosaic Idealize.ShloMosaic.ValueIdx

/-- A matrix of extended reals with `a` rows and `b` columns. -/
abbrev Mat (a b : Nat) := (⟨2, ![a, b]⟩ : Shape).Idx → EReal
/-- A vector of extended reals with `a` entries. -/
abbrev Vect (a : Nat) := (⟨1, ![a]⟩ : Shape).Idx → EReal

/-- Row `k` of the first band of `W1` (the rows that multiply `src`). -/
def rowSrc (k : Fin 64) : Fin 160 := ⟨k.val, by omega⟩
/-- Row `k` of the second band of `W1` (the rows that multiply `dest`): row `64 + k`. -/
def rowDest (k : Fin 64) : Fin 160 := ⟨64 + k.val, by omega⟩
/-- Row `k` of the third band of `W1` (the rows that multiply the gathered table rows): row `128 + k`. -/
def rowTab (k : Fin 32) : Fin 160 := ⟨128 + k.val, by omega⟩

/-- A sum over the 160 rows of `W1` is the sum over its three bands, in any commutative additive monoid. -/
theorem sum_three_bands {M : Type*} [AddCommMonoid M] (f : Fin 160 → M) :
    ∑ k : Fin 160, f k
      = ((∑ k : Fin 64, f (rowSrc k)) + ∑ k : Fin 64, f (rowDest k)) + ∑ k : Fin 32, f (rowTab k) := by
  have h1 : ∑ k : Fin 160, f k
      = (∑ k : Fin 128, f (Fin.castAdd 32 k)) + ∑ k : Fin 32, f (Fin.natAdd 128 k) :=
    Fin.sum_univ_add (a := 128) (b := 32) f
  have h2 : ∑ k : Fin 128, f (Fin.castAdd 32 k)
      = (∑ k : Fin 64, f (Fin.castAdd 32 (Fin.castAdd 64 k))) + ∑ k : Fin 64, f (Fin.castAdd 32 (Fin.natAdd 64 k)) :=
    Fin.sum_univ_add (a := 64) (b := 64) fun k => f (Fin.castAdd 32 k)
  rw [h1, h2]
  rfl

/-- Entry `j` of the hidden layer of edge `e`: `max (src_e · W1[0:64] + dest_e · W1[64:128] + g_e · W1[128:160] + b1) 0`.
    (The zero is kept as the float word both programs print for it.) -/
def hiddenAt (src dest : Mat 1000000 64) (g : Mat 1000000 32) (W1 : Mat 160 128) (b1 : Vect 128)
    (e : Fin 1000000) (j : Fin 128) : EReal :=
  max ((((∑ k : Fin 64, src (ix2 e k) * W1 (ix2 (rowSrc k) j))
        + ∑ k : Fin 64, dest (ix2 e k) * W1 (ix2 (rowDest k) j))
        + ∑ k : Fin 32, g (ix2 e k) * W1 (ix2 (rowTab k) j))
      + b1 (ix1 j))
    (Ideal.ofBits .f32 0x00000000#32)

/-- Entry `q` of the result for edge `e`: `hidden_e · W2 + b2`. -/
def outAt (src dest : Mat 1000000 64) (g : Mat 1000000 32) (W1 : Mat 160 128) (b1 : Vect 128)
    (W2 : Mat 128 64) (b2 : Vect 64) (e : Fin 1000000) (q : Fin 64) : EReal :=
  (∑ k : Fin 128, hiddenAt src dest g W1 b1 e k * W2 (ix2 k q)) + b2 (ix1 q)

/-- The whole result array. -/
def out (src dest : Mat 1000000 64) (g : Mat 1000000 32) (W1 : Mat 160 128) (b1 : Vect 128)
    (W2 : Mat 128 64) (b2 : Vect 64) : Mat 1000000 64 :=
  fun i => outAt src dest g W1 b1 W2 b2 (i 0) (i 1)

/-- The result array at an index given by its two coordinates. -/
theorem out_ix2 (src dest : Mat 1000000 64) (g : Mat 1000000 32) (W1 : Mat 160 128) (b1 : Vect 128)
    (W2 : Mat 128 64) (b2 : Vect 64) (e : Fin 1000000) (q : Fin 64) :
    out src dest g W1 b1 W2 b2 (ix2 e q) = outAt src dest g W1 b1 W2 b2 e q := rfl

end Cert.EdgeMlp

end
-- ==== Proof.KernelValue.lean ====
/-
  From blocks to the whole array: what the kernel's result array holds after the run.

  The grid has 125 points; point `t` works on edges `8000 t … 8000 t + 7999`. Its blocks of `src`, `dest`, the
  gathered table rows and the result are those rows of the million-row arrays; the three bands of `W1`, the two
  biases and `W2` are the same whole arrays at every point. The bands are rows 0–63, 64–127 and 128–159 of `W1`,
  cut out before the kernel runs, and the biases are the vectors `b1`, `b2` laid out as one-row matrices. So
  entry `(p, q)` of what point `t` writes back is the specified result at edge `8000 t + p`, column `q`
  (`written_block`), every row of the result lies in exactly the block of point `row / 8000` (`covered`), and the
  result array ends as the specified function of the arguments (`result_array`).
-/
import proofs.«159218_j26302379720743_1_alg».proof.Proof.Gen.KernelIdeal.Value
import proofs.«159218_j26302379720743_1_alg».proof.Proof.BodyValue
import proofs.«159218_j26302379720743_1_alg».proof.Proof.EdgeMlp
import Idealize.ShloMosaic.Lib.StableHlo.Run
import Idealize.ShloMosaic.Lib.ValueLayout

noncomputable section

namespace Cert.KernelIdeal.KernelValue

open Cert.KernelIdeal Cert.KernelIdeal.Gen Cert.KernelIdeal.Value Cert.KernelIdeal.BodyValue Cert.EdgeMlp
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Which block each window holds at a point -/

/-- The row-blocked windows (`src`, `dest`, the gathered rows, the result) are at block row `t`; the others stay at
    block (0, 0). Decided over the 125 points. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## The arrays the host prepares before the kernel runs -/

/-- The gathered table rows as the kernel finds them: the gather of `u` at the batch numbers (a negative number
    counted from the end of the table). -/
def gathered (c : Dev nD) : Mat 1000000 32 :=
  Host.gather gather_S256x32_S1000000x1_S1000000x32_1_0_n_n_0_1_132 (m ((c : Thread nD τ).loc main_arg2))
    (broadcastInDim S1000000x1 ![0] bcast_S1000000_S1000000x1_0
      (select (cmpi .slt (m ((c : Thread nD τ).loc main_arg3)) (broadcastInDim S1000000 ![] bcast_S_S1000000 (constantI S_ 32 0#32)))
        (addi (m ((c : Thread nD τ).loc main_arg3)) (broadcastInDim S1000000 ![] bcast_S_S1000000 (constantI S_ 32 256#32)))
        (m ((c : Thread nD τ).loc main_arg3))))

theorem entry_gathered (c : Dev nD) : (V m c main_v6 : S1000000x32.Idx → Elt Ideal .f32) = gathered m c := by
  unfold gathered
  dsimp only [V, hostOps0]; after_results <;> rfl

theorem entry_band_src (c : Dev nD) : (V m c main_v7 : S64x128.Idx → Elt Ideal .f32)
    = extractStridedSlice S64x128 ![0, 0] (m ((c : Thread nD τ).loc main_arg4)) slices_S160x128_S64x128_0_0 := by
  dsimp only [V, hostOps0]; after_results <;> rfl

theorem entry_band_dest (c : Dev nD) : (V m c main_v8 : S64x128.Idx → Elt Ideal .f32)
    = extractStridedSlice S64x128 ![64, 0] (m ((c : Thread nD τ).loc main_arg4)) slices_S160x128_S64x128_64_0 := by
  dsimp only [V, hostOps0]; after_results <;> rfl

theorem entry_band_tab (c : Dev nD) : (V m c main_v9 : S32x128.Idx → Elt Ideal .f32)
    = extractStridedSlice S32x128 ![128, 0] (m ((c : Thread nD τ).loc main_arg4)) slices_S160x128_S32x128_128_0 := by
  dsimp only [V, hostOps0]; after_results <;> rfl

theorem entry_bias1 (c : Dev nD) : (V m c main_v10 : S1x128.Idx → Elt Ideal .f32)
    = shapeCast S1x128 (m ((c : Thread nD τ).loc main_arg5)) shapeCasts_S128_S1x128 := by
  dsimp only [V, hostOps0]; after_results <;> rfl

theorem entry_bias2 (c : Dev nD) : (V m c main_v11 : S1x64.Idx → Elt Ideal .f32)
    = shapeCast S1x64 (m ((c : Thread nD τ).loc main_arg7)) shapeCasts_S64_S1x64 := by
  dsimp only [V, hostOps0]; after_results <;> rfl

/-! ## Each window's block read at an index -/

/-- Row `p` of point `t`'s block of `src` is row `8000 t + p` of `src`. -/
theorem src_block (c : Dev nD) (t : Fin cfg0.N) (p : Fin 8000) (a : Fin 64) (e : Fin 1000000)
    (he : e.val = 8000 * t.val + p.val) :
    (iblk m c 0 t : Vec Ideal S8000x64 .f32) (ix2 p a) = ((m ((c : Thread nD τ).loc main_arg0)) : Mat 1000000 64) (ix2 e a) := by
  obtain ⟨⟨h0, h1⟩, -⟩ := block_indices t
  unfold iblk
  show V m c main_arg0 (((cfg0.win 0).blk t).view.emb (ix2 p a)) = _
  rw [V_main_arg0]
  refine congrArg (m ((c : Thread nD τ).loc main_arg0)) (funext fun b => Fin.ext ?_)
  match b with
  | ⟨0, _⟩ => show win0_0.index t (0 : Fin 2) * 8000 + 1 * p.val = e.val; rw [h0, he]; omega
  | ⟨1, _⟩ => show win0_0.index t (1 : Fin 2) * 64 + 1 * a.val = a.val; rw [h1]; omega

/-- Row `p` of point `t`'s block of `dest` is row `8000 t + p` of `dest`. -/
theorem dest_block (c : Dev nD) (t : Fin cfg0.N) (p : Fin 8000) (a : Fin 64) (e : Fin 1000000)
    (he : e.val = 8000 * t.val + p.val) :
    (iblk m c 1 t : Vec Ideal S8000x64 .f32) (ix2 p a) = ((m ((c : Thread nD τ).loc main_arg1)) : Mat 1000000 64) (ix2 e a) := by
  obtain ⟨-, ⟨h0, h1⟩, -⟩ := block_indices t
  unfold iblk
  show V m c main_arg1 (((cfg0.win 1).blk t).view.emb (ix2 p a)) = _
  rw [V_main_arg1]
  refine congrArg (m ((c : Thread nD τ).loc main_arg1)) (funext fun b => Fin.ext ?_)
  match b with
  | ⟨0, _⟩ => show win0_1.index t (0 : Fin 2) * 8000 + 1 * p.val = e.val; rw [h0, he]; omega
  | ⟨1, _⟩ => show win0_1.index t (1 : Fin 2) * 64 + 1 * a.val = a.val; rw [h1]; omega

/-- Row `p` of point `t`'s block of the gathered rows is row `8000 t + p` of them. -/
theorem tab_block (c : Dev nD) (t : Fin cfg0.N) (p : Fin 8000) (a : Fin 32) (e : Fin 1000000)
    (he : e.val = 8000 * t.val + p.val) :
    (iblk m c 2 t : Vec Ideal S8000x32 .f32) (ix2 p a) = gathered m c (ix2 e a) := by
  obtain ⟨-, -, ⟨h0, h1⟩, -⟩ := block_indices t
  rw [← entry_gathered]
  unfold iblk
  show V m c main_v6 (((cfg0.win 2).blk t).view.emb (ix2 p a)) = V m c main_v6 (ix2 e a)
  refine congrArg (V m c main_v6) (funext fun b => Fin.ext ?_)
  match b with
  | ⟨0, _⟩ => show win0_2.index t (0 : Fin 2) * 8000 + 1 * p.val = e.val; rw [h0, he]; omega
  | ⟨1, _⟩ => show win0_2.index t (1 : Fin 2) * 32 + 1 * a.val = a.val; rw [h1]; omega

/-- The first band as loaded: rows 0–63 of `W1`. -/
theorem band_src_block (c : Dev nD) (t : Fin cfg0.N) (a : Fin 64) (k : Fin 128) :
    (iblk m c 3 t : Vec Ideal S64x128 .f32) (ix2 a k) = ((m ((c : Thread nD τ).loc main_arg4)) : Mat 160 128) (ix2 (rowSrc a) k) := by
  obtain ⟨-, -, -, ⟨h0, h1⟩, -⟩ := block_indices t
  have hb : (iblk m c 3 t : Vec Ideal S64x128 .f32) (ix2 a k) = (V m c main_v7 : S64x128.Idx → Elt Ideal .f32) (ix2 a k) := by
    unfold iblk
    show V m c main_v7 (((cfg0.win 3).blk t).view.emb (ix2 a k)) = V m c main_v7 (ix2 a k)
    refine congrArg (V m c main_v7) (funext fun b => Fin.ext ?_)
    match b with
    | ⟨0, _⟩ => show win0_3.index t (0 : Fin 2) * 64 + 1 * a.val = a.val; rw [h0]; omega
    | ⟨1, _⟩ => show win0_3.index t (1 : Fin 2) * 128 + 1 * k.val = k.val; rw [h1]; omega
  rw [hb, entry_band_src]
  exact slice2_axis0_apply 0 _ _ a k (rowSrc a) (by show a.val = 0 + a.val; omega)

/-- The second band as loaded: rows 64–127 of `W1`. -/
theorem band_dest_block (c : Dev nD) (t : Fin cfg0.N) (a : Fin 64) (k : Fin 128) :
    (iblk m c 4 t : Vec Ideal S64x128 .f32) (ix2 a k) = ((m ((c : Thread nD τ).loc main_arg4)) : Mat 160 128) (ix2 (rowDest a) k) := by
  obtain ⟨-, -, -, -, ⟨h0, h1⟩, -⟩ := block_indices t
  have hb : (iblk m c 4 t : Vec Ideal S64x128 .f32) (ix2 a k) = (V m c main_v8 : S64x128.Idx → Elt Ideal .f32) (ix2 a k) := by
    unfold iblk
    show V m c main_v8 (((cfg0.win 4).blk t).view.emb (ix2 a k)) = V m c main_v8 (ix2 a k)
    refine congrArg (V m c main_v8) (funext fun b => Fin.ext ?_)
    match b with
    | ⟨0, _⟩ => show win0_4.index t (0 : Fin 2) * 64 + 1 * a.val = a.val; rw [h0]; omega
    | ⟨1, _⟩ => show win0_4.index t (1 : Fin 2) * 128 + 1 * k.val = k.val; rw [h1]; omega
  rw [hb, entry_band_dest]
  exact slice2_axis0_apply 64 _ _ a k (rowDest a) rfl

/-- The third band as loaded: rows 128–159 of `W1`. -/
theorem band_tab_block (c : Dev nD) (t : Fin cfg0.N) (a : Fin 32) (k : Fin 128) :
    (iblk m c 5 t : Vec Ideal S32x128 .f32) (ix2 a k) = ((m ((c : Thread nD τ).loc main_arg4)) : Mat 160 128) (ix2 (rowTab a) k) := by
  obtain ⟨-, -, -, -, -, ⟨h0, h1⟩, -⟩ := block_indices t
  have hb : (iblk m c 5 t : Vec Ideal S32x128 .f32) (ix2 a k) = (V m c main_v9 : S32x128.Idx → Elt Ideal .f32) (ix2 a k) := by
    unfold iblk
    show V m c main_v9 (((cfg0.win 5).blk t).view.emb (ix2 a k)) = V m c main_v9 (ix2 a k)
    refine congrArg (V m c main_v9) (funext fun b => Fin.ext ?_)
    match b with
    | ⟨0, _⟩ => show win0_5.index t (0 : Fin 2) * 32 + 1 * a.val = a.val; rw [h0]; omega
    | ⟨1, _⟩ => show win0_5.index t (1 : Fin 2) * 128 + 1 * k.val = k.val; rw [h1]; omega
  rw [hb, entry_band_tab]
  exact slice2_axis0_apply 128 _ _ a k (rowTab a) rfl

/-- The first bias as loaded: `b1` as one row. -/
theorem bias1_block (c : Dev nD) (t : Fin cfg0.N) (k : Fin 128) :
    (iblk m c 6 t : Vec Ideal S1x128 .f32) (ix2 (0 : Fin 1) k) = ((m ((c : Thread nD τ).loc main_arg5)) : Vect 128) (ix1 k) := by
  obtain ⟨-, -, -, -, -, -, ⟨h0, h1⟩, -⟩ := block_indices t
  have hb : (iblk m c 6 t : Vec Ideal S1x128 .f32) (ix2 (0 : Fin 1) k) = (V m c main_v10 : S1x128.Idx → Elt Ideal .f32) (ix2 (0 : Fin 1) k) := by
    unfold iblk
    show V m c main_v10 (((cfg0.win 6).blk t).view.emb (ix2 (0 : Fin 1) k)) = V m c main_v10 (ix2 (0 : Fin 1) k)
    refine congrArg (V m c main_v10) (funext fun b => Fin.ext ?_)
    match b with
    | ⟨0, _⟩ => show win0_6.index t (0 : Fin 2) * 1 + 1 * 0 = 0; rw [h0]
    | ⟨1, _⟩ => show win0_6.index t (1 : Fin 2) * 128 + 1 * k.val = k.val; rw [h1]; omega
  rw [hb, entry_bias1]
  exact shapeCast_a_1a_apply _ _ (0 : Fin 1) k

/-- `W2` as loaded: the whole matrix. -/
theorem w2_block (c : Dev nD) (t : Fin cfg0.N) (k : Fin 128) (q : Fin 64) :
    (iblk m c 7 t : Vec Ideal S128x64 .f32) (ix2 k q) = ((m ((c : Thread nD τ).loc main_arg6)) : Mat 128 64) (ix2 k q) := by
  obtain ⟨-, -, -, -, -, -, -, ⟨h0, h1⟩, -⟩ := block_indices t
  unfold iblk
  show V m c main_arg6 (((cfg0.win 7).blk t).view.emb (ix2 k q)) = _
  rw [V_main_arg6]
  refine congrArg (m ((c : Thread nD τ).loc main_arg6)) (funext fun b => Fin.ext ?_)
  match b with
  | ⟨0, _⟩ => show win0_7.index t (0 : Fin 2) * 128 + 1 * k.val = k.val; rw [h0]; omega
  | ⟨1, _⟩ => show win0_7.index t (1 : Fin 2) * 64 + 1 * q.val = q.val; rw [h1]; omega

/-- The second bias as loaded: `b2` as one row. -/
theorem bias2_block (c : Dev nD) (t : Fin cfg0.N) (q : Fin 64) :
    (iblk m c 8 t : Vec Ideal S1x64 .f32) (ix2 (0 : Fin 1) q) = ((m ((c : Thread nD τ).loc main_arg7)) : Vect 64) (ix1 q) := by
  obtain ⟨-, -, -, -, -, -, -, -, ⟨h0, h1⟩, -⟩ := block_indices t
  have hb : (iblk m c 8 t : Vec Ideal S1x64 .f32) (ix2 (0 : Fin 1) q) = (V m c main_v11 : S1x64.Idx → Elt Ideal .f32) (ix2 (0 : Fin 1) q) := by
    unfold iblk
    show V m c main_v11 (((cfg0.win 8).blk t).view.emb (ix2 (0 : Fin 1) q)) = V m c main_v11 (ix2 (0 : Fin 1) q)
    refine congrArg (V m c main_v11) (funext fun b => Fin.ext ?_)
    match b with
    | ⟨0, _⟩ => show win0_8.index t (0 : Fin 2) * 1 + 1 * 0 = 0; rw [h0]
    | ⟨1, _⟩ => show win0_8.index t (1 : Fin 2) * 64 + 1 * q.val = q.val; rw [h1]; omega
  rw [hb, entry_bias2]
  exact shapeCast_a_1a_apply _ _ (0 : Fin 1) q

/-! ## What a point writes back -/

/-- The hidden layer of row `p` of point `t`'s block is the specified hidden layer of edge `8000 t + p`. -/
theorem hidden_block (c : Dev nD) (t : Fin cfg0.N) (p : Fin 8000) (k : Fin 128) (e : Fin 1000000)
    (he : e.val = 8000 * t.val + p.val) :
    hiddenBlk (iblk m c 0 t) (iblk m c 1 t) (iblk m c 2 t) (iblk m c 3 t) (iblk m c 4 t) (iblk m c 5 t) (iblk m c 6 t) p k
      = hiddenAt (m ((c : Thread nD τ).loc main_arg0)) (m ((c : Thread nD τ).loc main_arg1)) (gathered m c) (m ((c : Thread nD τ).loc main_arg4)) (m ((c : Thread nD τ).loc main_arg5)) e k := by
  unfold hiddenBlk hiddenAt
  refine congrArg₂ max (congrArg₂ (· + ·) (congrArg₂ (· + ·) (congrArg₂ (· + ·) ?_ ?_) ?_) ?_) rfl
  · exact Finset.sum_congr rfl fun a _ => by rw [src_block m c t p a e he, band_src_block m c t a k]
  · exact Finset.sum_congr rfl fun a _ => by rw [dest_block m c t p a e he, band_dest_block m c t a k]
  · exact Finset.sum_congr rfl fun a _ => by rw [tab_block m c t p a e he, band_tab_block m c t a k]
  · exact bias1_block m c t k

/-- WHAT POINT `t` WRITES BACK is block `t` of the specified result array. -/
theorem written_block (c : Dev nD) (t : Fin cfg0.N) :
    (dats m 0 c).flushed 9 t = ((cfg0.win 9).blk t).view.read (Elt Ideal)
      (out (m ((c : Thread nD τ).loc main_arg0)) (m ((c : Thread nD τ).loc main_arg1)) (gathered m c) (m ((c : Thread nD τ).loc main_arg4)) (m ((c : Thread nD τ).loc main_arg5)) (m ((c : Thread nD τ).loc main_arg6)) (m ((c : Thread nD τ).loc main_arg7))) := by
  rw [flushed9]
  unfold out0_9
  rw [View.canon_unit_zero zero_offsets]
  simp only [View.ld_unit_zero (S := S8000x64) zero_offsets, View.ld_unit_zero (S := S8000x32) zero_offsets,
    View.ld_unit_zero (S := S64x128) zero_offsets, View.ld_unit_zero (S := S32x128) zero_offsets,
    View.ld_unit_zero (S := S1x128) zero_offsets, View.ld_unit_zero (S := S128x64) zero_offsets,
    View.ld_unit_zero (S := S1x64) zero_offsets]
  obtain ⟨-, -, -, -, -, -, -, -, -, ⟨h0, h1⟩⟩ := block_indices t
  refine funext fun (y : S8000x64.Idx) => ?_
  obtain ⟨p, q, rfl⟩ : ∃ (p : Fin 8000) (q : Fin 64), y = ix2 p q := ⟨y 0, y 1, eq_ix2 y⟩
  have hN : cfg0.N = 125 := N_0
  have ht : t.val < 125 := hN ▸ t.isLt
  let e : Fin 1000000 := ⟨8000 * t.val + p.val, by have := p.isLt; omega⟩
  have hemb : ((cfg0.win 9).blk t).view.emb (ix2 p q) = (ix2 e q : S1000000x64.Idx) := funext fun b => Fin.ext (by
    match b with
    | ⟨0, _⟩ => show win0_9.index t (0 : Fin 2) * 8000 + 1 * p.val = 8000 * t.val + p.val; rw [h0]; omega
    | ⟨1, _⟩ => show win0_9.index t (1 : Fin 2) * 64 + 1 * q.val = q.val; rw [h1]; omega)
  show k0_pay1 (iblk m c 0 t) (iblk m c 1 t) (iblk m c 2 t) (iblk m c 3 t) (iblk m c 4 t) (iblk m c 5 t) (iblk m c 6 t)
      (iblk m c 7 t) (iblk m c 8 t) (ix2 p q)
    = out (m ((c : Thread nD τ).loc main_arg0)) (m ((c : Thread nD τ).loc main_arg1)) (gathered m c) (m ((c : Thread nD τ).loc main_arg4)) (m ((c : Thread nD τ).loc main_arg5)) (m ((c : Thread nD τ).loc main_arg6)) (m ((c : Thread nD τ).loc main_arg7)) (((cfg0.win 9).blk t).view.emb (ix2 p q))
  rw [hemb, out_ix2]
  refine (stored_apply (iblk m c 0 t) (iblk m c 1 t) (iblk m c 2 t) (iblk m c 3 t) (iblk m c 4 t) (iblk m c 5 t)
    (iblk m c 6 t) (iblk m c 7 t) (iblk m c 8 t) p q).trans ?_
  unfold outAt
  refine congrArg₂ (· + ·) (Finset.sum_congr rfl fun k _ => ?_) (bias2_block m c t q)
  rw [hidden_block m c t p k e rfl, w2_block m c t k q]

/-! ## The cover, the array and the run -/

/-- An index of the result array is in point `t`'s block iff each coordinate is in the block's range on its axis. -/
theorem mem_block (t : Fin cfg0.N) (i : S1000000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v12).slice (win0_9.rect t)).set ↔ _
  rw [View.set_slice_whole, Rect.mem_set_unit]
  exact Iff.rfl

/-- Every index of the result array is in the block of the point its row falls in, `row / 8000`. -/
theorem covered (i : S1000000x64.Idx) :
    ∃ t : Fin cfg0.N, (cfg0.win 9).flush t = true ∧ i ∈ ((cfg0.win 9).blk t).view.set := by
  have hN : cfg0.N = 125 := N_0
  have hi0 : (i 0).val < 1000000 := (i 0).isLt
  have hi1 : (i 1).val < 64 := (i 1).isLt
  let t : Fin cfg0.N := ⟨(i 0).val / 8000, by rw [hN]; omega⟩
  obtain ⟨-, -, -, -, -, -, -, -, -, ⟨h0, h1⟩⟩ := block_indices t
  have htv : t.val = (i 0).val / 8000 := rfl
  refine ⟨t, flush0_9 t, ?_⟩
  rw [mem_block]
  intro a
  match a with
  | ⟨0, _⟩ => show win0_9.index t (0 : Fin 2) * 8000 ≤ (i 0).val ∧ (i 0).val < win0_9.index t (0 : Fin 2) * 8000 + 8000; rw [h0, htv]; omega
  | ⟨1, _⟩ => show win0_9.index t (1 : Fin 2) * 64 ≤ (i 1).val ∧ (i 1).val < win0_9.index t (1 : Fin 2) * 64 + 64; rw [h1]; omega

/-- THE RESULT ARRAY after the run is the specified function of the arguments. -/
theorem result_array (c : Dev nD) :
    (dats m 0 c).arrAt 9 cfg0.N
      = out (m ((c : Thread nD τ).loc main_arg0)) (m ((c : Thread nD τ).loc main_arg1)) (gathered m c) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => written_block m c t) covered

/-- The run, read: the result array at the specified function of the arguments, the arguments unchanged. -/
theorem run : θ_run defs (onTc (τ := τ) (main (F := Ideal))) ⟨m, fun _ => 0, ρ⟩ fun r => ∀ c : Dev nD,
      r.2.mem ((c : Thread nD τ).loc main_v12)
        = out (m ((c : Thread nD τ).loc main_arg0)) (m ((c : Thread nD τ).loc main_arg1)) (gathered m c) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (result_array m c), (h c).2⟩) (run_blocks m ρ)

end Cert.KernelIdeal.KernelValue

end
-- ==== Proof.ReferenceValue.lean ====
/-
  The reference program computes the specified function.

  The reference gathers the table rows, joins `src`, `dest` and the gathered rows side by side into one
  160-column array, and contracts it with all of `W1`. Read at an index, the joined array is `src` on columns
  0–63, `dest` on columns 64–127 and the gathered rows on columns 128–159 (`joined_src`, `joined_dest`,
  `joined_tab`), so the 160-term contraction is the sum of the three band contractions
  (`Cert.EdgeMlp.sum_three_bands`), which is how the specification writes the hidden layer. The bias
  broadcasts, the maximum with zero, the second contraction and the second bias are the same operations on
  both sides, read index by index. The gather itself is never opened: it is the same function of `u` and
  `batch` in both programs.
-/
import proofs.«159218_j26302379720743_1_alg».proof.Proof.Gen.ReferenceIdeal.Read
import proofs.«159218_j26302379720743_1_alg».proof.Proof.EdgeMlp

noncomputable section

namespace Cert.ReferenceIdeal.RefValue

open Cert.ReferenceIdeal Cert.ReferenceIdeal.Gen Cert.ReferenceIdeal.Read Cert.EdgeMlp
open Idealize.ShloMosaic Idealize.ShloMosaic.TcCoe Idealize.ShloMosaic.ValueIdx

variable (x0 x1 : (⟨S1000000x64, .f32⟩ : BufTy).Contents (Elt Ideal)) (x2 : (⟨S256x32, .f32⟩ : BufTy).Contents (Elt Ideal))
  (x3 : (⟨S1000000, .i32⟩ : BufTy).Contents (Elt Ideal)) (x4 : (⟨S160x128, .f32⟩ : BufTy).Contents (Elt Ideal))
  (x5 : (⟨S128, .f32⟩ : BufTy).Contents (Elt Ideal)) (x6 : (⟨S128x64, .f32⟩ : BufTy).Contents (Elt Ideal))
  (x7 : (⟨S64, .f32⟩ : BufTy).Contents (Elt Ideal))

/-! ## The joined array, column band by column band -/

/-- On columns 0–63 the joined array is `src`. -/
theorem joined_src (e : Fin 1000000) (k : Fin 64) :
    val_main_v7 (F := Ideal) x0 x1 x2 x3 (ix2 e (rowSrc k)) = x0 (ix2 e k) := by
  unfold val_main_v7
  generalize val_main_v6 (F := Ideal) x2 x3 = g
  refine concatenate_apply_piece (1 : Fin 2) _ _ (ix2 e (rowSrc k)) 0 ?_ S1000000x64 x0 ?_ ?_ 0 ?_
    (ix2 e k) (fun b hb => ?_) ?_
  · show (0 : Nat) < 3; omega
  · rfl
  · rfl
  · rfl
  · match b with
    | ⟨0, _⟩ => rfl
    | ⟨1, _⟩ => exact absurd rfl hb
  · show 0 + k.val = k.val
    omega

/-- On columns 64–127 the joined array is `dest`. -/
theorem joined_dest (e : Fin 1000000) (k : Fin 64) :
    val_main_v7 (F := Ideal) x0 x1 x2 x3 (ix2 e (rowDest k)) = x1 (ix2 e k) := by
  unfold val_main_v7
  generalize val_main_v6 (F := Ideal) x2 x3 = g
  refine concatenate_apply_piece (1 : Fin 2) _ _ (ix2 e (rowDest k)) 1 ?_ S1000000x64 x1 ?_ ?_ 64 ?_
    (ix2 e k) (fun b hb => ?_) ?_
  · show (1 : Nat) < 3; omega
  · rfl
  · rfl
  · rfl
  · match b with
    | ⟨0, _⟩ => rfl
    | ⟨1, _⟩ => exact absurd rfl hb
  · show 64 + k.val = 64 + k.val
    rfl

/-- On columns 128–159 the joined array is the gathered table rows. -/
theorem joined_tab (e : Fin 1000000) (k : Fin 32) :
    val_main_v7 (F := Ideal) x0 x1 x2 x3 (ix2 e (rowTab k)) = val_main_v6 (F := Ideal) x2 x3 (ix2 e k) := by
  unfold val_main_v7
  generalize val_main_v6 (F := Ideal) x2 x3 = g
  refine concatenate_apply_piece (1 : Fin 2) _ _ (ix2 e (rowTab k)) 2 ?_ S1000000x32 g ?_ ?_ 128 ?_
    (ix2 e k) (fun b hb => ?_) ?_
  · show (2 : Nat) < 3; omega
  · rfl
  · rfl
  · rfl
  · match b with
    | ⟨0, _⟩ => rfl
    | ⟨1, _⟩ => exact absurd rfl hb
  · show 128 + k.val = 128 + k.val
    rfl

/-! ## The operand indices of the two contractions, in coordinates -/

theorem lidx8 (e : Fin 1000000) (j : Fin 128) (k : Fin 160) : lidx_main_v8 (ix2 e j) k = ix2 e k :=
  funext fun a => Fin.ext (by match a with | ⟨0, _⟩ => rfl | ⟨1, _⟩ => rfl)
theorem ridx8 (e : Fin 1000000) (j : Fin 128) (k : Fin 160) : ridx_main_v8 (ix2 e j) k = ix2 k j :=
  funext fun a => Fin.ext (by match a with | ⟨0, _⟩ => rfl | ⟨1, _⟩ => rfl)
theorem lidx13 (e : Fin 1000000) (q : Fin 64) (k : Fin 128) : lidx_main_v13 (ix2 e q) k = ix2 e k :=
  funext fun a => Fin.ext (by match a with | ⟨0, _⟩ => rfl | ⟨1, _⟩ => rfl)
theorem ridx13 (e : Fin 1000000) (q : Fin 64) (k : Fin 128) : ridx_main_v13 (ix2 e q) k = ix2 k q :=
  funext fun a => Fin.ext (by match a with | ⟨0, _⟩ => rfl | ⟨1, _⟩ => rfl)
theorem bias1_idx (e : Fin 1000000) (j : Fin 128) : idx_main_v9 (idx_main_v10 (ix2 e j)) = ix1 j :=
  funext fun a => Fin.ext (by match a with | ⟨0, _⟩ => rfl)
theorem bias2_idx (e : Fin 1000000) (q : Fin 64) : idx_main_v14 (idx_main_v15 (ix2 e q)) = ix1 q :=
  funext fun a => Fin.ext (by match a with | ⟨0, _⟩ => rfl)

/-! ## The hidden layer and the result -/

/-- The first contraction of the reference at `(e, j)`: the three band contractions added. -/
theorem first_contraction (e : Fin 1000000) (j : Fin 128) :
    val_main_v8 (F := Ideal) x0 x1 x2 x3 x4 (ix2 e j)
      = ((∑ k : Fin 64, x0 (ix2 e k) * x4 (ix2 (rowSrc k) j))
          + ∑ k : Fin 64, x1 (ix2 e k) * x4 (ix2 (rowDest k) j))
          + ∑ k : Fin 32, val_main_v6 (F := Ideal) x2 x3 (ix2 e k) * x4 (ix2 (rowTab k) j) := by
  rw [val_main_v8_apply, sum_three_bands]
  refine congrArg₂ (· + ·) (congrArg₂ (· + ·) ?_ ?_) ?_
  · refine Finset.sum_congr rfl fun k _ => ?_
    rw [lidx8, ridx8, joined_src]
  · refine Finset.sum_congr rfl fun k _ => ?_
    rw [lidx8, ridx8, joined_dest]
  · refine Finset.sum_congr rfl fun k _ => ?_
    rw [lidx8, ridx8, joined_tab]

/-- The reference's hidden layer is the specification's. -/
theorem hidden_eq (e : Fin 1000000) (j : Fin 128) :
    val_main_v12 (F := Ideal) x0 x1 x2 x3 x4 x5 (ix2 e j)
      = hiddenAt x0 x1 (val_main_v6 (F := Ideal) x2 x3) x4 x5 e j := by
  rw [val_main_v12_apply, val_main_v11_apply, first_contraction, val_main_v10_apply, val_main_v9_apply, bias1_idx,
    val_main_call0_v0_apply, val_main_call0_cst_apply]
  rfl

/-- The reference's result array is the specified one. -/
theorem result_eq :
    val_main_v16 (F := Ideal) x0 x1 x2 x3 x4 x5 x6 x7
      = out x0 x1 (val_main_v6 (F := Ideal) x2 x3) x4 x5 x6 x7 := by
  funext i
  obtain ⟨e, q, rfl⟩ : ∃ (e : Fin 1000000) (q : Fin 64), i = ix2 e q := ⟨i 0, i 1, eq_ix2 i⟩
  rw [out_ix2, val_main_v16_apply, val_main_v13_apply, val_main_v15_apply, val_main_v14_apply, bias2_idx]
  unfold outAt
  refine congrArg₂ (· + ·) (Finset.sum_congr rfl fun k _ => ?_) rfl
  rw [lidx13, ridx13, hidden_eq]

end Cert.ReferenceIdeal.RefValue

end
-- ==== Proof.lean ====
/-
  An edge perceptron over a million edges: for every edge `e`, with `x_e = [ src_e | dest_e | u[batch_e] ]`
  (64 + 64 + 32 entries), the result is `max (x_e · W1 + b1) 0 · W2 + b2`.

  The kernel gathers the table rows on the host, cuts `W1` into its three row bands and works through the edges
  in 125 blocks of 8000: in each block it multiplies the block of `src`, of `dest` and of the gathered rows by
  its own band, adds the three products, the bias, takes the maximum with zero, multiplies by `W2` and adds the
  second bias. The reference joins the three pieces into one 160-column array and contracts it with all of `W1`.
  Over the extended reals both are the function `Cert.EdgeMlp.out` of the argument arrays:
  `Proof/BodyValue.lean` reads the kernel's stored block entry by entry, `Proof/KernelValue.lean` places the
  blocks in the whole array, `Proof/ReferenceValue.lean` reads the reference, and the one law between them is
  that a sum over 160 indices is the sum over its three bands (`Proof/EdgeMlp.lean`), true in any commutative
  additive monoid; the precondition (finite inputs) is not used. The gather is the same function of `u` and
  `batch` in both programs and is never opened. The idealization rewrote nothing, so `preserves` is `True`.
-/
import proofs.«159218_j26302379720743_1_alg».proof.Defs
import proofs.«159218_j26302379720743_1_alg».proof.Proof.Gen.Kernel
import proofs.«159218_j26302379720743_1_alg».proof.Proof.Gen.Kernel.Skeleton
import proofs.«159218_j26302379720743_1_alg».proof.Proof.Gen.Kernel.Launch
import proofs.«159218_j26302379720743_1_alg».proof.Proof.Gen.Kernel.Points
import proofs.«159218_j26302379720743_1_alg».proof.Proof.Gen.Kernel.Frame
import proofs.«159218_j26302379720743_1_alg».proof.Proof.Gen.KernelIdeal
import proofs.«159218_j26302379720743_1_alg».proof.Proof.Gen.KernelIdeal.Skeleton
import proofs.«159218_j26302379720743_1_alg».proof.Proof.Gen.KernelIdeal.Launch
import proofs.«159218_j26302379720743_1_alg».proof.Proof.Gen.KernelIdeal.Points
import proofs.«159218_j26302379720743_1_alg».proof.Proof.Gen.KernelIdeal.Frame
import proofs.«159218_j26302379720743_1_alg».proof.Proof.Gen.ReferenceIdeal
import proofs.«159218_j26302379720743_1_alg».proof.Proof.Gen.Pre_finite_inputs
import proofs.«159218_j26302379720743_1_alg».proof.Proof.Gen.KernelIdeal.Value
import proofs.«159218_j26302379720743_1_alg».proof.Proof.Gen.ReferenceIdeal.Run
import proofs.«159218_j26302379720743_1_alg».proof.Proof.Gen.ReferenceIdeal.Read
import proofs.«159218_j26302379720743_1_alg».proof.Proof.KernelValue
import proofs.«159218_j26302379720743_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- The gathered table rows are one function of `u` and `batch` in both programs: the same gather at the same
    indices (a negative batch number counted from the end of the table). -/
theorem gathered_agree (m : (ℓ : Loc Cert.KernelIdeal.nD Cert.KernelIdeal.τ Cert.KernelIdeal.sig) → Buf (Elt Ideal) ℓ)
    (c : Dev Cert.KernelIdeal.nD) :
    Cert.KernelIdeal.KernelValue.gathered m c
      = Cert.ReferenceIdeal.Read.val_main_v6 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := rfl

/-- From memories that agree on the arguments both programs end with the result array at `Cert.EdgeMlp.out` of
    the arguments. -/
theorem algebraic : Cert.algebraic_KernelIdeal_ReferenceIdeal := by
  intro m ρ m' ρ' _ hagree
  refine ⟨fun c => Cert.EdgeMlp.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.KernelValue.gathered m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v16_eq, Cert.ReferenceIdeal.RefValue.result_eq, a0, a1, a2, a3, a4, a5, a6, a7,
    ← gathered_agree m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
